-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S2097152 : Shape := ⟨1, ![2097152]⟩
abbrev S4096x8 : Shape := ⟨2, ![4096, 8]⟩
abbrev S4096x1 : Shape := ⟨2, ![4096, 1]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S4096x8 : S_.BroadcastsInDim S4096x8 (![] : Fin 0 → Fin S4096x8.rank)
  reducesTo_S4096x8_S_d0_1 : S4096x8.ReducesTo [0, 1] S_
  bcast_S_S4096x1 : S_.BroadcastsInDim S4096x1 (![] : Fin 0 → Fin S4096x1.rank)
  reducesTo_S4096x1_S_d0_1 : S4096x1.ReducesTo [0, 1] S_

variable [Facts]

def fn {F : FTy → Type} [FloatOps F] (main_arg0 : FVec F S2x2048x4096 .f32) (main_arg1 : IVec S2097152 32) (main_arg2 : FVec F S4096x8 .f32) (main_arg3 : FVec F S4096x1 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S4096x8 .f32 := Host.absf main_arg2
  let main_cst_0 : FVec F S_ .f32 := constant S_ .f32 0x7F800000#32
  let main_v5 : FVec F S4096x8 .f32 := broadcastInDim S4096x8 ![] bcast_S_S4096x8 main_cst_0
  let main_v6 : IVec S4096x8 1 := cmpf .olt main_v4 main_v5
  let main_c_1 : IVec S_ 1 := constantI S_ 1 1#1
  let main_v7 : IVec S_ 1 := (fun x v => Host.reduce IntOp.andi x v reducesTo_S4096x8_S_d0_1 h_S_) main_v6 main_c_1
  let main_v8 : IVec S_ 1 := andi main_v3 main_v7
  let main_v9 : FVec F S4096x1 .f32 := Host.absf main_arg3
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  main_v13
-- ==== Kernel.lean ====
abbrev S2x2048x4096 : Shape := ⟨3, ![2, 2048, 4096]⟩
abbrev S2097152 : Shape := ⟨1, ![2097152]⟩
abbrev S4096x8 : Shape := ⟨2, ![4096, 8]⟩
abbrev S4096x1 : Shape := ⟨2, ![4096, 1]⟩
abbrev S_ : Shape := ⟨0, ![]⟩
abbrev S2097152x1 : Shape := ⟨2, ![2097152, 1]⟩
abbrev S2097152x8 : Shape := ⟨2, ![2097152, 8]⟩
abbrev S4096x4096 : Shape := ⟨2, ![4096, 4096]⟩
abbrev S2048x512 : Shape := ⟨2, ![2048, 512]⟩
abbrev S2048x2048 : Shape := ⟨2, ![2048, 2048]⟩

abbrev nBuf : Space → Nat
  | .hbm => 20
  | .vmem => 6
  | .smem => 0
  | _ => 0

abbrev bufTy : (tb : Table) → Fin (tcTables nBuf tb) → BufTy
  | .hbm, ⟨0, _⟩ => ⟨S2x2048x4096, .f32⟩
  | .hbm, ⟨1, _⟩ => ⟨S2097152, .i32⟩
  | .hbm, ⟨2, _⟩ => ⟨S4096x8, .f32⟩
  | .hbm, ⟨3, _⟩ => ⟨S4096x1, .f32⟩
  | .hbm, ⟨4, _⟩ => ⟨S_, .i32⟩
  | .hbm, ⟨5, _⟩ => ⟨S2097152, .i32⟩
  | .hbm, ⟨6, _⟩ => ⟨S2097152, .i1⟩
  | .hbm, ⟨7, _⟩ => ⟨S_, .i32⟩
  | .hbm, ⟨8, _⟩ => ⟨S2097152, .i32⟩
  | .hbm, ⟨9, _⟩ => ⟨S2097152, .i32⟩
  | .hbm, ⟨10, _⟩ => ⟨S2097152, .i32⟩
  | .hbm, ⟨11, _⟩ => ⟨S2097152x1, .i32⟩
  | .hbm, ⟨12, _⟩ => ⟨S2097152x8, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .bf16⟩
  | .hbm, ⟨17, _⟩ => ⟨S4096x4096, .f32⟩
  | .hbm, ⟨18, _⟩ => ⟨S4096x4096, .f32⟩
  | .hbm, ⟨19, _⟩ => ⟨S2x2048x4096, .f32⟩
  | .local _ .vmem, ⟨0, _⟩ => ⟨S2048x512, .f32⟩
  | .local _ .vmem, ⟨1, _⟩ => ⟨S2048x512, .f32⟩
  | .local _ .vmem, ⟨2, _⟩ => ⟨S2048x512, .bf16⟩
  | .local _ .vmem, ⟨3, _⟩ => ⟨S2048x512, .bf16⟩
  | .local _ .vmem, ⟨4, _⟩ => ⟨S2048x2048, .f32⟩
  | .local _ .vmem, ⟨5, _⟩ => ⟨S2048x2048, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bcast_S_S2097152 : S_.BroadcastsInDim S2097152 (![] : Fin 0 → Fin S2097152.rank)
  bcast_S2097152_S2097152x1_0 : S2097152.BroadcastsInDim S2097152x1 (![0] : Fin 1 → Fin S2097152x1.rank)
  shapeCasts_S2097152x8_S4096x4096 : S2097152x8.ShapeCasts S4096x4096
  bcast_S4096x1_S4096x4096_0_1 : S4096x1.BroadcastsInDim S4096x4096 (![0, 1] : Fin 2 → Fin S4096x4096.rank)
  bitsLt_bf16_f32 : FTy.bits .bf16 < FTy.bits .f32
  shapeCasts_S2x2048x4096_S4096x4096 : S2x2048x4096.ShapeCasts S4096x4096
  inb_S2048x2048_S2048x2048_0_0 : ∀ a, (![0, 0] : Fin 2 → Nat) a + S2048x2048.size a ≤ S2048x2048.size a
  h_S2048x2048 : 0 < S2048x2048.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S2048x2048_S2048x2048 : S2048x2048.ShapeCasts S2048x2048
  shapeCasts_S4096x4096_S2x2048x4096 : S4096x4096.ShapeCasts S2x2048x4096
  gather_S4096x8_S2097152x1_S2097152x8_1_0_n_n_0_1_18_wf : GatherDims.WF S4096x8 S2097152x1 S2097152x8 [1] [0] [] [0] [] 1 ![1, 8]
  dot_S2048x512_S2048x512_S2048x2048_1_1_0_0_n_n_wf : DotDims.WF S2048x512 S2048x512 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S4096x4096.size a
  hwx0_0 : ∀ i : grid0.Coords, EltTy.bits .f32 = 32 ∨ (Rect.block (s := S4096x4096) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S4096x4096.size a
  hwx0_1 : ∀ i : grid0.Coords, EltTy.bits .bf16 = 32 ∨ (Rect.block (s := S4096x4096) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S4096x4096.size a
  hwx0_2 : ∀ i : grid0.Coords, EltTy.bits .f32 = 32 ∨ (Rect.block (s := S4096x4096) S2048x2048.size (cc0_transform_2 i) (hinb0_2 i)).WholeWords (EltTy.packing .f32)

variable [Facts₀]

def gather_S4096x8_S2097152x1_S2097152x8_1_0_n_n_0_1_18 : GatherDims S4096x8 S2097152x1 S2097152x8 where
  offsetDims := [1]
  collapsedSliceDims := [0]
  operandBatchingDims := []
  startIndicesBatchingDims := []
  startIndexMap := [0]
  indexVectorDim := 1
  sliceSizes := ![1, 8]
  wf := gather_S4096x8_S2097152x1_S2097152x8_1_0_n_n_0_1_18_wf
def dot_S2048x512_S2048x512_S2048x2048_1_1_0_0_n_n : DotDims S2048x512 S2048x512 S2048x2048 where
  lhsContracting := [1]
  rhsContracting := [1]
  lhsNonContracting := [0]
  rhsNonContracting := [0]
  lhsBatch := []
  rhsBatch := []
  wf := dot_S2048x512_S2048x512_S2048x2048_1_1_0_0_n_n_wf

abbrev win0_0 : Pipeline.Window sig grid0 :=
  Pipeline.Window.ofSpec (Memref.whole main_v11) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2048x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x2048x4096 : Shape := ⟨3, ![2, 2048, 4096]⟩
abbrev S2097152 : Shape := ⟨1, ![2097152]⟩
abbrev S4096x8 : Shape := ⟨2, ![4096, 8]⟩
abbrev S4096x1 : Shape := ⟨2, ![4096, 1]⟩
abbrev S_ : Shape := ⟨0, ![]⟩
abbrev S2097152x1 : Shape := ⟨2, ![2097152, 1]⟩
abbrev S2097152x8 : Shape := ⟨2, ![2097152, 8]⟩
abbrev S4096x4096 : Shape := ⟨2, ![4096, 4096]⟩

abbrev nBuf : Space → Nat
  | .hbm => 17
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S2097152, .i32⟩
  | .hbm, ⟨2, _⟩ => ⟨S4096x8, .f32⟩
  | .hbm, ⟨3, _⟩ => ⟨S4096x1, .f32⟩
  | .hbm, ⟨4, _⟩ => ⟨S_, .i32⟩
  | .hbm, ⟨5, _⟩ => ⟨S2097152, .i32⟩
  | .hbm, ⟨6, _⟩ => ⟨S2097152, .i1⟩
  | .hbm, ⟨7, _⟩ => ⟨S_, .i32⟩
  | .hbm, ⟨8, _⟩ => ⟨S2097152, .i32⟩
  | .hbm, ⟨9, _⟩ => ⟨S2097152, .i32⟩
  | .hbm, ⟨10, _⟩ => ⟨S2097152, .i32⟩
  | .hbm, ⟨11, _⟩ => ⟨S2097152x1, .i32⟩
  | .hbm, ⟨12, _⟩ => ⟨S2097152x8, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S_S2097152 : S_.BroadcastsInDim S2097152 (![] : Fin 0 → Fin S2097152.rank)
  bcast_S2097152_S2097152x1_0 : S2097152.BroadcastsInDim S2097152x1 (![0] : Fin 1 → Fin S2097152x1.rank)
  shapeCasts_S2097152x8_S4096x4096 : S2097152x8.ShapeCasts S4096x4096
  bcast_S4096x1_S4096x4096_0_1 : S4096x1.BroadcastsInDim S4096x4096 (![0, 1] : Fin 2 → Fin S4096x4096.rank)
  gather_S4096x8_S2097152x1_S2097152x8_1_0_n_n_0_1_18_wf : GatherDims.WF S4096x8 S2097152x1 S2097152x8 [1] [0] [] [0] [] 1 ![1, 8]
  dot_S2x2048x4096_S4096x4096_S2x2048x4096_2_1_01_0_n_n_wf : DotDims.WF S2x2048x4096 S4096x4096 S2x2048x4096 [2] [1] [0, 1] [0] [] []

variable [Facts₀]

def gather_S4096x8_S2097152x1_S2097152x8_1_0_n_n_0_1_18 : GatherDims S4096x8 S2097152x1 S2097152x8 where
  offsetDims := [1]
  collapsedSliceDims := [0]
  operandBatchingDims := []
  startIndicesBatchingDims := []
  startIndexMap := [0]
  indexVectorDim := 1
  sliceSizes := ![1, 8]
  wf := gather_S4096x8_S2097152x1_S2097152x8_1_0_n_n_0_1_18_wf
def dot_S2x2048x4096_S4096x4096_S2x2048x4096_2_1_01_0_n_n : DotDims S2x2048x4096 S4096x4096 S2x2048x4096 where
  lhsContracting := [2]
  rhsContracting := [1]
  lhsNonContracting := [0, 1]
  rhsNonContracting := [0]
  lhsBatch := []
  rhsBatch := []
  wf := dot_S2x2048x4096_S4096x4096_S2x2048x4096_2_1_01_0_n_n_wf

class Facts : Prop extends Facts₀ where

variable [Facts]
-- ==== Proof.BlockedSum.lean ====
/-
  A sum over 4096 terms taken as eight consecutive blocks of 512, one block added after the other starting from
  nothing, is the whole sum. Only associativity and commutativity of addition are used, so everything here holds in
  every additive commutative monoid — the extended reals among them, infinities included.
-/
import Mathlib

namespace Cert.BlockedSum

/-- Adding block `k` (the terms `k·512, …, k·512 + 511`) to the sum of the first `k` blocks gives the sum of the
    first `k + 1` blocks. -/
theorem add_block {M : Type*} [AddCommMonoid M] (f : ℕ → M) (k : ℕ) :
    ∑ i ∈ Finset.range (k * 512), f i + ∑ j ∈ Finset.range 512, f (k * 512 + j)
      = ∑ i ∈ Finset.range ((k + 1) * 512), f i := by
  rw [add_one_mul, Finset.sum_range_add]

/-- A sum of 512 values that are the terms `b, …, b + 511` of a sequence, as a sum over a range. -/
theorem fin_block {M : Type*} [AddCommMonoid M] (g : Fin 512 → M) (f : ℕ → M) (b : ℕ)
    (h : ∀ k : Fin 512, g k = f (b + k.val)) :
    ∑ k, g k = ∑ j ∈ Finset.range 512, f (b + j) := by
  rw [← Fin.sum_univ_eq_sum_range (fun j => f (b + j)) 512]
  exact Finset.sum_congr rfl fun k _ => h k

/-- The first 4096 terms of a sequence, summed over the index type with 4096 elements. -/
theorem range_all {M : Type*} [AddCommMonoid M] (f : ℕ → M) :
    ∑ i ∈ Finset.range 4096, f i = ∑ k : Fin 4096, f k.val :=
  (Fin.sum_univ_eq_sum_range f 4096).symm

end Cert.BlockedSum
-- ==== Proof.KernelBody.lean ====
/-
  One grid step of the kernel body over the extended reals, read at an index.

  A step is given the row block `x` (2048 × 512) of the left operand, the row block `w` (2048 × 512) of the right
  operand in its natural [out, in] layout, and the running output block `acc` (2048 × 2048), and leaves

      acc[p, q] + ∑ₖ x[p, k] · w[q, k].

  Narrowing `x` to the 16-bit format is the identity on extended reals, the shape casts to the same shape are
  identities, the matrix unit's product into a zero accumulator is the plain sum over the contracted axis (the last
  axis of BOTH operands: the right operand is used transposed), and the last addition is pointwise. The block the
  first step of a sweep over K stores before accumulating is zero everywhere.
-/
import proofs.«129520_j49907519980150_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- The step's contraction: the last axis of the left block against the last axis of the right block. -/
abbrev mm : DotDims S2048x512 S2048x512 S2048x2048 := dot_S2048x512_S2048x512_S2048x2048_1_1_0_0_n_n

/-- The left operand is read in the output's row … -/
theorem lhs_row (j : S2048x2048.Idx) (q : mm.contr.Idx) : (mm.lhsIdx j q 0).val = (j 0).val := by
  unfold DotDims.lhsIdx
  rw [dif_neg (show ¬(0 : Fin S2048x512.rank) ∈ mm.lhsBatch by decide),
    dif_pos (show (0 : Fin S2048x512.rank) ∈ mm.lhsNonContracting by decide)]
  rfl
/-- … at the contracted position; -/
theorem lhs_col (j : S2048x2048.Idx) (q : mm.contr.Idx) : (mm.lhsIdx j q 1).val = (q ⟨0, by decide⟩).val :=
  mm.lhsIdx_val_of_single rfl j q
/-- the right operand in the row named by the output's COLUMN … -/
theorem rhs_row (j : S2048x2048.Idx) (q : mm.contr.Idx) : (mm.rhsIdx j q 0).val = (j 1).val := by
  unfold DotDims.rhsIdx
  rw [dif_neg (show ¬(0 : Fin S2048x512.rank) ∈ mm.rhsBatch by decide),
    dif_pos (show (0 : Fin S2048x512.rank) ∈ mm.rhsNonContracting by decide)]
  rfl
/-- … at the contracted position. -/
theorem rhs_col (j : S2048x2048.Idx) (q : mm.contr.Idx) : (mm.rhsIdx j q 1).val = (q ⟨0, by decide⟩).val :=
  mm.rhsIdx_val_of_single rfl j q

/-- The matrix unit's product of two blocks into the zero accumulator, at `(p, q)`: `∑ₖ l[p, k] · r[q, k]`. -/
theorem product_apply (l r : FVec Ideal S2048x512 .bf16) (p q : Fin 2048) :
    matmul mm none l r (constant (F := Ideal) S2048x2048 .f32 0x00000000#32) (ix2 p q)
      = ∑ k : Fin 512, l (ix2 p k) * r (ix2 q k) := by
  refine (Ideal.matmul_constant_zero_apply mm none l r (ix2 p q)).trans ?_
  rw [← Equiv.sum_comp (contrEquiv1 mm 512 rfl rfl).symm]
  refine Finset.sum_congr rfl fun k _ => ?_
  have hk := contrEquiv1_symm_val mm 512 rfl rfl k
  have el : mm.lhsIdx (ix2 p q) ((contrEquiv1 mm 512 rfl rfl).symm k) = ix2 p k := funext fun a => Fin.ext (by
    match a with
    | ⟨0, _⟩ => exact lhs_row _ _
    | ⟨1, _⟩ => exact (lhs_col _ _).trans hk)
  have er : mm.rhsIdx (ix2 p q) ((contrEquiv1 mm 512 rfl rfl).symm k) = ix2 q k := funext fun a => Fin.ext (by
    match a with
    | ⟨0, _⟩ => exact rhs_row _ _
    | ⟨1, _⟩ => exact (rhs_col _ _).trans hk)
  rw [el, er]

/-- One step at `(p, q)`: the running block there plus the product of the two row blocks. -/
theorem step_apply (x : Vec Ideal S2048x512 .f32) (acc : Vec Ideal S2048x2048 .f32) (w : Vec Ideal S2048x512 .bf16)
    (p q : Fin 2048) :
    k0_pay2 (F := Ideal) x acc w (ix2 p q) = acc (ix2 p q) + ∑ k : Fin 512, x (ix2 p k) * w (ix2 q k) := by
  unfold k0_pay2
  simp only [shapeCast_self]
  refine (addf_apply _ _ (ix2 p q)).trans ?_
  refine congrArg (acc (ix2 p q) + ·) ?_
  exact product_apply _ _ p q

/-- The block stored at the start of a sweep over K is zero everywhere. -/
theorem zero_apply (j : S2048x2048.Idx) : k0_pay1 (F := Ideal) j = 0 := by
  unfold k0_pay1
  show Ideal.ofBits .f32 0x00000000#32 = 0
  exact Ideal.ofBits_zero_f32

end Cert.KernelIdeal.Body

end
-- ==== Proof.CaseValues.lean ====
/-
  What one run of the kernel body leaves in the output block, in each of its two control cases, as a value
  (for floats of any kind):

    * at the first step of a sweep over K (the K coordinate is 0) the body first stores the zero block, reads it
      back, and then stores one accumulation step over it;
    * at every later step it stores one accumulation step over the block the step before left.

  In both cases the last store covers the whole block, so the block ends at that store's value; the loads read the
  whole staging buffers, so the step is taken of the buffers' contents themselves.
-/
import proofs.«129520_j49907519980150_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Cases

open Cert.KernelIdeal Cert.KernelIdeal.Gen

variable {F : FTy → Type} [FloatOps F]

theorem hz : (![0, 0] : Fin 2 → Nat) = fun _ => 0 := funext fun a => by fin_cases a <;> rfl

/-- A later step of a sweep: the block `acc` left by the step before becomes one step over `acc`. -/
theorem later_step (c : Dev nD) (i : grid0.Coords) (a3 : Memref sig .tc .vmem S2048x512 .f32) (h3 : a3.IsWhole)
    (a4 : Memref sig .tc .vmem S2048x512 .bf16) (h4 : a4.IsWhole) (a5 : Memref sig .tc .vmem S2048x2048 .f32) (h5 : a5.IsWhole)
    (hc : ¬cond0_0 i) (x : Vec F S2048x512 .f32) (w : Vec F S2048x512 .bf16) (acc : Vec F S2048x2048 .f32) :
    out0_B_2 c i a3 h3 a4 h4 a5 h5 hc x w acc = k0_pay2 x acc w := by
  unfold out0_B_2
  rw [View.read_writes_eq_canon _ _ _ (cover0_B_2 c i a3 h3 a4 h4 a5 h5 hc x w acc)]
  unfold kernelRun0_B
  dsimp only
  sl_unfold_words
  rw [View.canon_unit_zero hz]
  simp only [View.readAt_eq_ld, h3.read_unread, h4.read_unread, h5.read_unread,
    View.ld_unit_zero (S := S2048x512) hz, View.ld_unit_zero (S := S2048x2048) hz]

/-- The first step of a sweep: one step over the zero block, whatever the buffer held before. -/
theorem first_step (c : Dev nD) (i : grid0.Coords) (a3 : Memref sig .tc .vmem S2048x512 .f32) (h3 : a3.IsWhole)
    (a4 : Memref sig .tc .vmem S2048x512 .bf16) (h4 : a4.IsWhole) (a5 : Memref sig .tc .vmem S2048x2048 .f32) (h5 : a5.IsWhole)
    (hc : cond0_0 i) (x : Vec F S2048x512 .f32) (w : Vec F S2048x512 .bf16) :
    out0_A_2 c i a3 h3 a4 h4 a5 h5 hc x w = k0_pay2 x (k0_pay1 (F := F)) w := by
  unfold out0_A_2
  rw [View.read_writes_eq_canon _ _ _ (cover0_A_2 c i a3 h3 a4 h4 a5 h5 hc x w)]
  unfold kernelRun0_A
  dsimp only
  sl_unfold_words
  rw [View.canon_cons_unit_zero (S := S2048x2048) hz, View.readCov_unit_zero (S := S2048x2048) _ hz]
  simp only [View.readAt_eq_ld, h3.read_unread, h4.read_unread, View.ld_unit_zero (S := S2048x512) hz]

end Cert.KernelIdeal.Cases

end
-- ==== Proof.BlockReads.lean ====
/-
  Where the windows' blocks sit in their arrays (for floats of any kind).

  The grid is 2 × 2 × 8, walked with the last axis fastest, so grid point `t` (0 ≤ t < 32) has row-block coordinate
  `t / 16`, column-block coordinate `t / 8 % 2` and K coordinate `t % 8`. At point `t`

    * the left operand's block is rows  `[t/16 · 2048, +2048)`,   columns `[t%8 · 512, +512)` of the [4096, 4096] array,
    * the right operand's block is rows `[t/8%2 · 2048, +2048)`, columns `[t%8 · 512, +512)` of its [4096, 4096] array,
    * the output block is rows `[t/16 · 2048, +2048)`, columns `[t/8%2 · 2048, +2048)` of the [4096, 4096] result.
-/
import proofs.«129520_j49907519980150_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

/-- The three index maps at every grid point, in closed form (decided over the 32 points). -/
theorem index_maps : ∀ t : Fin cfg0.N,
    win0_0.index t (0 : Fin 2) = t.val / 16 ∧ win0_0.index t (1 : Fin 2) = t.val % 8
    ∧ win0_1.index t (0 : Fin 2) = t.val / 8 % 2 ∧ win0_1.index t (1 : Fin 2) = t.val % 8
    ∧ win0_2.index t (0 : Fin 2) = t.val / 16 ∧ win0_2.index t (1 : Fin 2) = t.val / 8 % 2 :=
  (by decide +kernel : ∀ t : Fin grid0.N, _)

/-- The left operand's block at point `t`, entry `(p, k)`, is the array's entry `(t/16 · 2048 + p, t%8 · 512 + k)`. -/
theorem left_block (c : Dev nD) (t : Fin cfg0.N) (p : Fin 2048) (k : Fin 512) (P I : Fin 4096)
    (hP : P.val = t.val / 16 * 2048 + p.val) (hI : I.val = t.val % 8 * 512 + k.val) :
    (iblk m c 0 t : Vec F S2048x512 .f32) (ix2 p k) = V m c main_v11 (ix2 P I) := by
  have hi := index_maps t
  unfold iblk
  rw [View.read_apply]
  show V m c main_v11 _ = V m c main_v11 _
  congr 1
  funext a
  apply Fin.ext
  match a with
  | ⟨0, _⟩ => show win0_0.index t 0 * 2048 + 1 * p.val = P.val; rw [hi.1, hP]; omega
  | ⟨1, _⟩ => show win0_0.index t 1 * 512 + 1 * k.val = I.val; rw [hi.2.1, hI]; omega

/-- The right operand's block at point `t`, entry `(q, k)`, is its array's entry `(t/8%2 · 2048 + q, t%8 · 512 + k)`. -/
theorem right_block (c : Dev nD) (t : Fin cfg0.N) (q : Fin 2048) (k : Fin 512) (Q I : Fin 4096)
    (hQ : Q.val = t.val / 8 % 2 * 2048 + q.val) (hI : I.val = t.val % 8 * 512 + k.val) :
    (iblk m c 1 t : Vec F S2048x512 .bf16) (ix2 q k) = V m c main_v10 (ix2 Q I) := by
  have hi := index_maps t
  unfold iblk
  rw [View.read_apply]
  show V m c main_v10 _ = V m c main_v10 _
  congr 1
  funext a
  apply Fin.ext
  match a with
  | ⟨0, _⟩ => show win0_1.index t 0 * 2048 + 1 * q.val = Q.val; rw [hi.2.2.1, hQ]; omega
  | ⟨1, _⟩ => show win0_1.index t 1 * 512 + 1 * k.val = I.val; rw [hi.2.2.2.1, hI]; omega

end Cert.KernelIdeal.Blocks

end
-- ==== Proof.Accumulate.lean ====
/-
  The accumulation across the grid's K axis, over the extended reals.

  Write `A` for the left operand's [4096, 4096] array and `B` for the right operand's (row `Q` of `B` holds the weights
  of output feature `Q`), as the kernel finds them. For fixed rows `P` of `A` and `Q` of `B` let `term i = A[P, i] · B[Q, i]`.
  Grid point `t` has row block `t / 16`, column block `t / 8 % 2` and K coordinate `t % 8`; at K coordinate 0 the output
  block restarts from zero, and every point adds its 512 products. So after point `t` the output block's entry `(p, q)` is

      ∑ i < (t % 8 + 1) · 512, A[t/16 · 2048 + p, i] · B[t/8%2 · 2048 + q, i],

  by induction on `t`: within a sweep the row and column blocks do not move and the K coordinate goes up by one. After the
  last point of a sweep (K coordinate 7) this is the full inner product of the two rows. No property of the numbers is used
  beyond `0 + a = a` and the re-bracketing of a sum, so infinite entries are no exception.
-/
import proofs.«129520_j49907519980150_2_alg».proof.Proof.BlockedSum
import proofs.«129520_j49907519980150_2_alg».proof.Proof.KernelBody
import proofs.«129520_j49907519980150_2_alg».proof.Proof.CaseValues
import proofs.«129520_j49907519980150_2_alg».proof.Proof.BlockReads

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen

variable (m : (ℓ : Loc nD τ sig) → Buf (Elt Ideal) ℓ)

/-- Product `i` of row `P` of `A` with row `Q` of `B` (nothing beyond the rows' length). -/
def term (A : FVec Ideal S4096x4096 .f32) (B : FVec Ideal S4096x4096 .bf16) (P Q : Fin 4096) (i : ℕ) : EReal :=
  if h : i < 4096 then A (ix2 P ⟨i, h⟩) * B (ix2 Q ⟨i, h⟩) else 0

/-- The inner product of row `P` of `A` with row `Q` of `B`. -/
def rowDot (A : FVec Ideal S4096x4096 .f32) (B : FVec Ideal S4096x4096 .bf16) (P Q : Fin 4096) : EReal :=
  ∑ i : Fin 4096, A (ix2 P i) * B (ix2 Q i)

/-- All 4096 products summed are the inner product. -/
theorem sum_term (A : FVec Ideal S4096x4096 .f32) (B : FVec Ideal S4096x4096 .bf16) (P Q : Fin 4096) :
    ∑ i ∈ Finset.range 4096, term A B P Q i = rowDot A B P Q := by
  rw [Cert.BlockedSum.range_all]
  refine Finset.sum_congr rfl fun k _ => ?_
  unfold term
  rw [dif_pos k.isLt]

/-- Two blocks of 512 columns that sit at columns `b, …, b + 511` of row `P` of `A` and of row `Q` of `B`: their
    product at `(p, q)` is the sum of the products `b, …, b + 511` of the two rows. -/
theorem block_products (A : FVec Ideal S4096x4096 .f32) (B : FVec Ideal S4096x4096 .bf16)
    (x : Vec Ideal S2048x512 .f32) (w : Vec Ideal S2048x512 .bf16) (p q : Fin 2048) (P Q : Fin 4096) (b : ℕ)
    (hb : b + 512 ≤ 4096)
    (hx : ∀ (k : Fin 512) (hk : b + k.val < 4096), x (ix2 p k) = A (ix2 P ⟨b + k.val, hk⟩))
    (hw : ∀ (k : Fin 512) (hk : b + k.val < 4096), w (ix2 q k) = B (ix2 Q ⟨b + k.val, hk⟩)) :
    ∑ k : Fin 512, x (ix2 p k) * w (ix2 q k) = ∑ j ∈ Finset.range 512, term A B P Q (b + j) := by
  refine Cert.BlockedSum.fin_block _ (term A B P Q) b fun k => ?_
  have hk : b + k.val < 4096 := by have := k.isLt; omega
  unfold term
  rw [dif_pos hk]
  exact congrArg₂ (fun u v : EReal => u * v) (hx k hk) (hw k hk)

/-- THE RUNNING SUM: the output block after point `n`, at `(p, q)`. -/
theorem after_point (c : Dev nD) : ∀ (n : ℕ) (h : n < cfg0.N) (p q : Fin 2048) (P Q : Fin 4096),
    P.val = n / 16 * 2048 + p.val → Q.val = n / 8 % 2 * 2048 + q.val →
    outsAt0 m c n h (ix2 p q) = ∑ i ∈ Finset.range ((n % 8 + 1) * 512), term (V m c main_v11) (V m c main_v10) P Q i := by
  intro n
  induction n using Nat.strong_induction_on with
  | _ n ih =>
    intro h p q P Q hP hQ
    have hN : n < 32 := lt_of_lt_of_eq h (show cfg0.N = 32 from N_0)
    have hprod := block_products (V m c main_v11) (V m c main_v10) (iblk m c 0 ⟨n, h⟩) (iblk m c 1 ⟨n, h⟩) p q P Q
      (n % 8 * 512) (by omega)
      (fun k hk => Blocks.left_block m c ⟨n, h⟩ p k P ⟨_, hk⟩ hP rfl)
      (fun k hk => Blocks.right_block m c ⟨n, h⟩ q k Q ⟨_, hk⟩ hQ rfl)
    by_cases h0 : n % 8 = 0
    · refine (congrFun (outsAt0_A m c ⟨n, h⟩ h0) (ix2 p q)).trans ?_
      refine (congrFun (Cases.first_step c (grid0.coords ⟨n, h⟩) (ms0_0 ⟨n, h⟩) (hs0_0 ⟨n, h⟩) (ms0_1 ⟨n, h⟩) (hs0_1 ⟨n, h⟩)
        (ms0_2 ⟨n, h⟩) (hs0_2 ⟨n, h⟩) ((hcond0_0 ⟨n, h⟩).mpr h0) (iblk m c 0 ⟨n, h⟩) (iblk m c 1 ⟨n, h⟩)) (ix2 p q)).trans ?_
      refine (Body.step_apply (iblk m c 0 ⟨n, h⟩) (k0_pay1 (F := Ideal)) (iblk m c 1 ⟨n, h⟩) p q).trans ?_
      refine (congrArg₂ (fun u v : EReal => u + v) (Body.zero_apply (ix2 p q)) hprod).trans ?_
      beta_reduce
      rw [zero_add, h0]
      simp only [Nat.zero_mul, Nat.zero_add, Nat.one_mul]
    · have h1 : 1 ≤ n := by omega
      refine (congrFun (outsAt0_B m c ⟨n, h⟩ h0) (ix2 p q)).trans ?_
      refine (congrFun (Cases.later_step c (grid0.coords ⟨n, h⟩) (ms0_0 ⟨n, h⟩) (hs0_0 ⟨n, h⟩) (ms0_1 ⟨n, h⟩) (hs0_1 ⟨n, h⟩)
        (ms0_2 ⟨n, h⟩) (hs0_2 ⟨n, h⟩) (fun hh => h0 ((hcond0_0 ⟨n, h⟩).mp hh)) (iblk m c 0 ⟨n, h⟩) (iblk m c 1 ⟨n, h⟩)
        (outsAt0 m c (n - 1) (Nat.lt_of_le_of_lt (Nat.sub_le _ _) h))) (ix2 p q)).trans ?_
      refine (Body.step_apply (iblk m c 0 ⟨n, h⟩) (outsAt0 m c (n - 1) (Nat.lt_of_le_of_lt (Nat.sub_le _ _) h))
        (iblk m c 1 ⟨n, h⟩) p q).trans ?_
      refine (congrArg₂ (fun u v : EReal => u + v)
        (ih (n - 1) (by omega) (Nat.lt_of_le_of_lt (Nat.sub_le _ _) h) p q P Q (by omega) (by omega)) hprod).trans ?_
      beta_reduce
      rw [show (n - 1) % 8 + 1 = n % 8 by omega]
      exact Cert.BlockedSum.add_block _ (n % 8)

end Cert.KernelIdeal.Acc

end
-- ==== Proof.ResultArray.lean ====
/-
  From the output blocks to the whole result array, over the extended reals.

  The output block with row block `r` and column block `s` is written back once, after the last K step of its sweep
  (grid point `16 r + 8 s + 7`), when its entry `(p, q)` holds the full inner product of row `2048 r + p` of the left
  array with row `2048 s + q` of the right array. The four blocks tile the [4096, 4096] result, so after the launch
  the result array holds, at `(P, Q)`, the inner product of row `P` of the left array with row `Q` of the right one.
-/
import proofs.«129520_j49907519980150_2_alg».proof.Proof.Accumulate

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Acc

variable (m : (ℓ : Loc nD τ sig) → Buf (Elt Ideal) ℓ)

/-- The array of all inner products of a row of `A` with a row of `B`. -/
def rowDots (A : FVec Ideal S4096x4096 .f32) (B : FVec Ideal S4096x4096 .bf16) : FVec Ideal S4096x4096 .f32 :=
  fun j => rowDot A B ⟨(j 0).val, (j 0).isLt⟩ ⟨(j 1).val, (j 1).isLt⟩

/-- The array of inner products at an entry whose coordinates are `P` and `Q`. -/
theorem rowDots_at (A : FVec Ideal S4096x4096 .f32) (B : FVec Ideal S4096x4096 .bf16) (j : S4096x4096.Idx) (P Q : Fin 4096)
    (hP : (j 0).val = P.val) (hQ : (j 1).val = Q.val) : rowDots A B j = rowDot A B P Q := by
  unfold rowDots
  have eP : (⟨(j 0).val, (j 0).isLt⟩ : Fin 4096) = P := Fin.ext hP
  have eQ : (⟨(j 1).val, (j 1).isLt⟩ : Fin 4096) = Q := Fin.ext hQ
  rw [eP, eQ]

/-- What a write-back point writes back is its block of the array of inner products. -/
theorem flushed_eq (c : Dev nD) (t : Fin cfg0.N) (hf : (cfg0.win 2).flush t = true) :
    (dats m 0 c).flushed 2 t
      = ((cfg0.win 2).blk t).view.read (Elt Ideal) (rowDots (V m c main_v11) (V m c main_v10)) := by
  have h7 : t.val % 8 = 7 := (flush0_2 t).mp hf
  have hN : t.val < 32 := lt_of_lt_of_eq t.isLt (show cfg0.N = 32 from N_0)
  have hi := Blocks.index_maps t
  show (cfg0.win 2).cut (grid0.coords t) ((dats m 0 c).after 2 t) = _
  rw [after0_2]
  funext y
  obtain ⟨p, q, rfl⟩ : ∃ (p q : Fin 2048), y = ix2 p q := ⟨y 0, y 1, eq_ix2 (n0 := 2048) (n1 := 2048) y⟩
  rw [View.read_apply]
  show outsAt0 m c t.val t.isLt (ix2 p q) = rowDots (V m c main_v11) (V m c main_v10) (((cfg0.win 2).blk t).view.emb (ix2 p q))
  have hP : t.val / 16 * 2048 + p.val < 4096 := by have := p.isLt; omega
  have hQ : t.val / 8 % 2 * 2048 + q.val < 4096 := by have := q.isLt; omega
  have e8 : (t.val % 8 + 1) * 512 = 4096 := by omega
  refine (after_point m c t.val t.isLt p q ⟨_, hP⟩ ⟨_, hQ⟩ rfl rfl).trans ?_
  rw [e8]
  refine (sum_term _ _ _ _).trans ?_
  refine (rowDots_at _ _ _ ⟨_, hP⟩ ⟨_, hQ⟩ ?_ ?_).symm
  · show win0_2.index t 0 * 2048 + 1 * p.val = t.val / 16 * 2048 + p.val
    rw [hi.2.2.2.2.1]; omega
  · show win0_2.index t 1 * 2048 + 1 * q.val = t.val / 8 % 2 * 2048 + q.val
    rw [hi.2.2.2.2.2]; omega

/-- An entry of the result is in point `t`'s block iff each coordinate is in the block's range. -/
theorem mem_blk (t : Fin cfg0.N) (i : S4096x4096.Idx) :
    i ∈ ((cfg0.win 2).blk t).view.set
      ↔ ∀ a : Fin 2, win0_2.index t a * S2048x2048.size a ≤ (i a).val
          ∧ (i a).val < win0_2.index t a * S2048x2048.size a + S2048x2048.size a := by
  show i ∈ ((View.whole main_v12).slice (win0_2.rect t)).set ↔ _
  rw [View.set_slice_whole, Rect.mem_set_unit]
  exact Iff.rfl

/-- Every entry `(P, Q)` of the result is in the block written back at point `16 (P / 2048) + 8 (Q / 2048) + 7`. -/
theorem cover (i : S4096x4096.Idx) :
    ∃ t : Fin cfg0.N, (cfg0.win 2).flush t = true ∧ i ∈ ((cfg0.win 2).blk t).view.set := by
  have h0 : (i 0).val < 4096 := (i 0).isLt
  have h1 : (i 1).val < 4096 := (i 1).isLt
  have hlt : (i 0).val / 2048 * 16 + (i 1).val / 2048 * 8 + 7 < cfg0.N := by
    rw [show cfg0.N = 32 from N_0]; omega
  have hi := Blocks.index_maps ⟨_, hlt⟩
  refine ⟨⟨_, hlt⟩, (flush0_2 ⟨_, hlt⟩).mpr (by show ((i 0).val / 2048 * 16 + (i 1).val / 2048 * 8 + 7) % 8 = 7; omega), ?_⟩
  rw [mem_blk]
  intro a
  match a with
  | ⟨0, _⟩ =>
    show win0_2.index ⟨_, hlt⟩ 0 * 2048 ≤ (i 0).val ∧ (i 0).val < win0_2.index ⟨_, hlt⟩ 0 * 2048 + 2048
    rw [hi.2.2.2.2.1]
    show ((i 0).val / 2048 * 16 + (i 1).val / 2048 * 8 + 7) / 16 * 2048 ≤ (i 0).val
      ∧ (i 0).val < ((i 0).val / 2048 * 16 + (i 1).val / 2048 * 8 + 7) / 16 * 2048 + 2048
    omega
  | ⟨1, _⟩ =>
    show win0_2.index ⟨_, hlt⟩ 1 * 2048 ≤ (i 1).val ∧ (i 1).val < win0_2.index ⟨_, hlt⟩ 1 * 2048 + 2048
    rw [hi.2.2.2.2.2]
    show ((i 0).val / 2048 * 16 + (i 1).val / 2048 * 8 + 7) / 8 % 2 * 2048 ≤ (i 1).val
      ∧ (i 1).val < ((i 0).val / 2048 * 16 + (i 1).val / 2048 * 8 + 7) / 8 % 2 * 2048 + 2048
    omega

/-- THE RESULT ARRAY after the launch: all the inner products of a row of the left array with a row of the right one. -/
theorem result_array (c : Dev nD) :
    (dats m 0 c).arrAt 2 cfg0.N = rowDots (V m c main_v11) (V m c main_v10) :=
  (dats m 0 c).arrAt_eq_of_cover 2 (rowDots (V m c main_v11) (V m c main_v10)) (flushed_eq m c) cover

end Cert.KernelIdeal.Result

end
-- ==== Proof.HostSides.lean ====
/-
  The host operations around the kernel's launch, read as values (for floats of any kind).

  Before the launch the program builds the two operands: the left one is the activations [2, 2048, 4096] laid out as
  [4096, 4096] (rows are the (batch, position) pairs in row-major order); the right one is the weight matrix in its
  [out, in] layout — the codebook rows gathered by the indices (a negative index first wrapped by adding 4096), laid out
  as [4096, 4096], every row multiplied by its scale — narrowed to the 16-bit format. After the launch the [4096, 4096]
  result is laid out as [2, 2048, 4096].
-/
import proofs.«129520_j49907519980150_2_alg».proof.Proof.Gen.KernelIdeal.Frame
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Host

open Cert.KernelIdeal Cert.KernelIdeal.Gen

variable {F : FTy → Type} [FloatOps F]
variable (m : (ℓ : Loc nD τ sig) → Buf (Elt F) ℓ)

/-- The weight matrix [out, in] before narrowing: codebook rows gathered by the wrapped indices, laid out as
    [4096, 4096], each row scaled. Carried as one function of the three arguments and never opened. -/
def weights (idx : (⟨S2097152, .i32⟩ : BufTy).Contents (Elt F)) (codebook : (⟨S4096x8, .f32⟩ : BufTy).Contents (Elt F))
    (scales : (⟨S4096x1, .f32⟩ : BufTy).Contents (Elt F)) : (⟨S4096x4096, .f32⟩ : BufTy).Contents (Elt F) :=
  mulf (shapeCast _ (Host.gather gather_S4096x8_S2097152x1_S2097152x8_1_0_n_n_0_1_18 codebook
      (broadcastInDim S2097152x1 ![0] bcast_S2097152_S2097152x1_0
        (select (cmpi .slt idx (broadcastInDim S2097152 ![] bcast_S_S2097152 (constantI S_ 32 0#32)))
          (addi idx (broadcastInDim S2097152 ![] bcast_S_S2097152 (constantI S_ 32 4096#32))) idx)))
      shapeCasts_S2097152x8_S4096x4096)
    (broadcastInDim S4096x4096 ![0, 1] bcast_S4096x1_S4096x4096_0_1 scales)

/-- The left operand as the kernel finds it: the activations laid out as [4096, 4096]. -/
theorem left_array (c : Dev nD) :
    (V m c main_v11 : (⟨S4096x4096, .f32⟩ : BufTy).Contents (Elt F))
      = shapeCast S4096x4096 (m ((c : Thread nD τ).loc main_arg0)) shapeCasts_S2x2048x4096_S4096x4096 := by
  show StableHlo.after hostOps0 (fun b => m (c, b)) (Proc.devRef .tc main_v11) = _
  after_results
  rfl

/-- The right operand as the kernel finds it: the weight matrix, narrowed. -/
theorem right_array (c : Dev nD) :
    (V m c main_v10 : (⟨S4096x4096, .bf16⟩ : BufTy).Contents (Elt F))
      = truncf .bf16 (weights (m ((c : Thread nD τ).loc main_arg1)) (m ((c : Thread nD τ).loc main_arg2))
          (m ((c : Thread nD τ).loc main_arg3))) bitsLt_bf16_f32 := by
  show StableHlo.after hostOps0 (fun b => m (c, b)) (Proc.devRef .tc main_v10) = _
  after_results
  rfl

/-- The program's result: the launch's [4096, 4096] output array, as the launch leaves it, laid out as [2, 2048, 4096]. -/
theorem tail_result (c : Dev nD) :
    Pipeline.afterTail₀ cfgs (dats m) 0 (V0 m) [hostOps1] c main_v13
      = shapeCast S2x2048x4096 ((dats m 0 c).arrAt 2 cfg0.N) shapeCasts_S4096x4096_S2x2048x4096 := by
  unfold Pipeline.afterTail₀
  show StableHlo.after hostOps1 _ (Proc.devRef .tc main_v13) = _
  after_results
  have e : Pipeline.withArrays (cfgs 0).spec c (V0 m c) (fun w => (dats m 0 c).arrAt w (cfgs 0).N) (Proc.devRef .tc main_v12)
      = (dats m 0 c).arrAt 2 cfg0.N :=
    Pipeline.withArrays_arr spec0 launch0.win.arr_inj c (V0 m c) (fun w => (dats m 0 c).arrAt w cfg0.N) 2
  rw [e]
  rfl

end Cert.KernelIdeal.Host

end
-- ==== Proof.Spec.lean ====
/-
  The specification: a dense layer without bias over the extended reals,

      out[b, s, o] = ∑ₖ x[b, s, k] · W[o, k]        (b < 2, s < 2048, o < 4096, k < 4096),

  of activations `x` [2, 2048, 4096] and a weight matrix `W` [4096, 4096] in its [out, in] layout. Both programs are shown
  to end with this function of the same `x` and the same `W`.
-/
import Idealize.ShloMosaic.PureOps.Ideal
import Idealize.ShloMosaic.Lib.ValueIdx

noncomputable section

namespace Cert.Spec

open Idealize.ShloMosaic Idealize.ShloMosaic.ValueIdx

/-- `out[b, s, o] = ∑ₖ x[b, s, k] · W[o, k]`. -/
def linear (x : (⟨3, ![2, 2048, 4096]⟩ : Shape).Idx → EReal) (W : (⟨2, ![4096, 4096]⟩ : Shape).Idx → EReal) :
    (⟨3, ![2, 2048, 4096]⟩ : Shape).Idx → EReal :=
  fun i => ∑ k : Fin 4096,
    x (ix3 (⟨(i 0).val, (i 0).isLt⟩ : Fin 2) (⟨(i 1).val, (i 1).isLt⟩ : Fin 2048) k) * W (ix2 (⟨(i 2).val, (i 2).isLt⟩ : Fin 4096) k)

end Cert.Spec

end
-- ==== Proof.KernelValue.lean ====
/-
  The kernel's program computes the specification, over the extended reals.

  The launch leaves the [4096, 4096] array of inner products of a row of the left array with a row of the right array
  (narrowing the weights to the 16-bit format changes nothing on extended reals). Row `2048 b + s` of the left array is
  the activations' row `(b, s)`, and the result's entry `(b, s, o)` is the array's entry `(2048 b + s, o)`: the two
  re-layouts keep row-major positions. So the program ends with `∑ₖ x[b, s, k] · W[o, k]` at `(b, s, o)`, and, as its
  frame says, with its arguments unchanged.
-/
import proofs.«129520_j49907519980150_2_alg».proof.Proof.ResultArray
import proofs.«129520_j49907519980150_2_alg».proof.Proof.HostSides
import proofs.«129520_j49907519980150_2_alg».proof.Proof.Spec

noncomputable section

open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen

/-- The activations laid out as [4096, 4096], read at `(2048 b + s, k)`. -/
theorem rows_apply {α : Type} (x : S2x2048x4096.Idx → α) (b : Fin 2) (s : Fin 2048) (k : Fin 4096) (P : Fin 4096)
    (hP : P.val = b.val * 2048 + s.val) :
    shapeCast S4096x4096 x shapeCasts_S2x2048x4096_S4096x4096 (ix2 P k) = x (ix3 b s k) :=
  shapeCast_apply x shapeCasts_S2x2048x4096_S4096x4096 (ix2 P k) (ix3 b s k) (by
    rewrite [Shape.rowMajor_val_three, Shape.rowMajor_val_two]
    show (b.val * 2048 + s.val) * 4096 + k.val = P.val * 4096 + k.val
    rw [hP])

/-- A [4096, 4096] array laid out as [2, 2048, 4096], read at `(b, s, o)`. -/
theorem unrows_apply {α : Type} (y : S4096x4096.Idx → α) (b : Fin 2) (s : Fin 2048) (o : Fin 4096) (P : Fin 4096)
    (hP : P.val = b.val * 2048 + s.val) :
    shapeCast S2x2048x4096 y shapeCasts_S4096x4096_S2x2048x4096 (ix3 b s o) = y (ix2 P o) :=
  shapeCast_apply y shapeCasts_S4096x4096_S2x2048x4096 (ix3 b s o) (ix2 P o) (by
    rewrite [Shape.rowMajor_val_three, Shape.rowMajor_val_two]
    show P.val * 4096 + o.val = (b.val * 2048 + s.val) * 4096 + o.val
    rw [hP])

/-- The inner products of the re-laid activations with the narrowed weights, re-laid, are the dense layer. -/
theorem relaid_products (x : FVec Ideal S2x2048x4096 .f32) (W : FVec Ideal S4096x4096 .f32) :
    shapeCast S2x2048x4096
        (Result.rowDots (shapeCast S4096x4096 x shapeCasts_S2x2048x4096_S4096x4096) (truncf .bf16 W bitsLt_bf16_f32))
        shapeCasts_S4096x4096_S2x2048x4096
      = Cert.Spec.linear x W := by
  funext i
  obtain ⟨b, s, o, rfl⟩ : ∃ (b : Fin 2) (s : Fin 2048) (o : Fin 4096), i = ix3 b s o := ⟨i 0, i 1, i 2, eq_ix3 i⟩
  have hP : b.val * 2048 + s.val < 4096 := by have := b.isLt; have := s.isLt; omega
  refine (unrows_apply _ b s o ⟨_, hP⟩ rfl).trans ?_
  unfold Result.rowDots Acc.rowDot Cert.Spec.linear
  refine Finset.sum_congr rfl fun k _ => ?_
  exact congrArg₂ (fun u v : EReal => u * v) (rows_apply x b s k ⟨_, hP⟩ rfl) rfl

variable (m : (ℓ : Loc nD τ sig) → Buf (Elt Ideal) ℓ) (ρ : Dev nD → PrngReg)

/-- The program's result buffer after the run. -/
theorem result_eq (c : Dev nD) :
    Pipeline.afterTail₀ cfgs (dats m) 0 (V0 m) [hostOps1] c main_v13
      = Cert.Spec.linear (m ((c : Thread nD τ).loc main_arg0))
          (Host.weights (m ((c : Thread nD τ).loc main_arg1)) (m ((c : Thread nD τ).loc main_arg2)) (m ((c : Thread nD τ).loc main_arg3))) := by
  rw [Host.tail_result, Result.result_array, Host.left_array, Host.right_array]
  exact relaid_products _ _

/-- THE RUN, read: every weakly fair execution ends with the result at the dense layer of the arguments, and the arguments
    unchanged. -/
theorem run : θ_run defs (onTc (τ := τ) (main (F := Ideal))) ⟨m, fun _ => 0, ρ⟩ fun r => ∀ c : Dev nD,
      r.2.mem ((c.tc : Thread nD τ).loc main_v13)
        = Cert.Spec.linear (m ((c : Thread nD τ).loc main_arg0))
            (Host.weights (m ((c : Thread nD τ).loc main_arg1)) (m ((c : Thread nD τ).loc main_arg2)) (m ((c : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v13 (Pipeline.mem_restRefs_of main_v13 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Value

end
-- ==== Proof.RefValue.lean ====
/-
  The reference computes the specification: its one contraction, read at `(b, s, o)`, is the sum over `k` of the
  activations at `(b, s, k)` times its weight matrix at `(o, k)`.
-/
import proofs.«129520_j49907519980150_2_alg».proof.Proof.Gen.ReferenceIdeal.Read
import proofs.«129520_j49907519980150_2_alg».proof.Proof.Spec

noncomputable section

namespace Cert.ReferenceIdeal.Bridge

open Cert.ReferenceIdeal Cert.ReferenceIdeal.Gen Cert.ReferenceIdeal.Read Idealize.ShloMosaic Idealize.ShloMosaic.ValueIdx

/-- The reference's result is the dense layer of its first argument and its weight matrix. -/
theorem result_eq (x0 : (⟨S2x2048x4096, .f32⟩ : BufTy).Contents (Elt Ideal)) (x1 : (⟨S2097152, .i32⟩ : BufTy).Contents (Elt Ideal))
    (x2 : (⟨S4096x8, .f32⟩ : BufTy).Contents (Elt Ideal)) (x3 : (⟨S4096x1, .f32⟩ : BufTy).Contents (Elt Ideal)) :
    val_main_v10 (F := Ideal) x0 x1 x2 x3 = Cert.Spec.linear x0 (val_main_v9 (F := Ideal) x1 x2 x3) := by
  funext i
  rw [val_main_v10_apply]
  unfold Cert.Spec.linear
  refine Finset.sum_congr rfl fun k _ => ?_
  have el : lidx_main_v10 i k = ix3 (⟨(i 0).val, (i 0).isLt⟩ : Fin 2) (⟨(i 1).val, (i 1).isLt⟩ : Fin 2048) k :=
    funext fun a => by match a with | ⟨0, _⟩ => rfl | ⟨1, _⟩ => rfl | ⟨2, _⟩ => rfl
  have er : ridx_main_v10 i k = ix2 (⟨(i 2).val, (i 2).isLt⟩ : Fin 4096) k :=
    funext fun a => by match a with | ⟨0, _⟩ => rfl | ⟨1, _⟩ => rfl
  rw [el, er]

end Cert.ReferenceIdeal.Bridge

end
-- ==== Proof.lean ====
/-
  A quantized linear layer: the weight matrix `W` [out, in] is `codebook[indices]` laid out as [4096, 4096] with each
  row multiplied by its scale, and the result is `out[b, s, o] = ∑ₖ x[b, s, k] · W[o, k]`.

  The kernel builds `W` on the host exactly as the reference does, narrows it to a 16-bit format, and multiplies on a
  2 × 2 × 8 grid: output blocks of 2048 × 2048, the contracted axis cut into 8 pieces of 512, each output block zeroed at
  the first piece and accumulated in place over the 8 pieces. The reference is one contraction over all 4096.

  Over the extended reals narrowing is the identity and the matrix unit's product is the plain sum, so the kernel's entry
  is `((0 + Σ₀) + Σ₁) + … + Σ₇` with `Σⱼ` the sum of the products `512 j, …, 512 j + 511`, and the reference's is the sum of
  all 4096 products: equal by associativity of addition alone, with no finiteness needed (the precondition is never
  opened). The two weight matrices are the same function of the same three arguments and are never looked into.

    * frames: the kernel's two are generated; the reference's is its generated run with the result dropped;
    * preserves: the idealization rewrote nothing;
    * algebraic: both runs end with the specification `Cert.Spec.linear` of arguments that agree.
-/
import proofs.«129520_j49907519980150_2_alg».proof.Defs
import proofs.«129520_j49907519980150_2_alg».proof.Proof.Gen.Kernel
import proofs.«129520_j49907519980150_2_alg».proof.Proof.Gen.Kernel.Skeleton
import proofs.«129520_j49907519980150_2_alg».proof.Proof.Gen.Kernel.Launch
import proofs.«129520_j49907519980150_2_alg».proof.Proof.Gen.Kernel.Points
import proofs.«129520_j49907519980150_2_alg».proof.Proof.Gen.Kernel.Frame
import proofs.«129520_j49907519980150_2_alg».proof.Proof.Gen.KernelIdeal
import proofs.«129520_j49907519980150_2_alg».proof.Proof.Gen.KernelIdeal.Skeleton
import proofs.«129520_j49907519980150_2_alg».proof.Proof.Gen.KernelIdeal.Launch
import proofs.«129520_j49907519980150_2_alg».proof.Proof.Gen.KernelIdeal.Points
import proofs.«129520_j49907519980150_2_alg».proof.Proof.Gen.KernelIdeal.Frame
import proofs.«129520_j49907519980150_2_alg».proof.Proof.Gen.ReferenceIdeal
import proofs.«129520_j49907519980150_2_alg».proof.Proof.Gen.Pre_finite_inputs
import proofs.«129520_j49907519980150_2_alg».proof.Proof.Gen.ReferenceIdeal.Run
import proofs.«129520_j49907519980150_2_alg».proof.Proof.Gen.ReferenceIdeal.Read
import proofs.«129520_j49907519980150_2_alg».proof.Proof.KernelValue
import proofs.«129520_j49907519980150_2_alg».proof.Proof.RefValue
import Idealize.ShloMosaic.Adequacy
import Idealize.ShloMosaic.Init

noncomputable section

namespace Cert.Proof

open Idealize.ShloMosaic Idealize.SL.Sem

/-- The kernel's weight matrix and the reference's are one function of the indices, the codebook and the scales: the same
    host operations in the same order. -/
theorem weights_agree (idx : (⟨Cert.KernelIdeal.S2097152, .i32⟩ : BufTy).Contents (Elt Ideal))
    (codebook : (⟨Cert.KernelIdeal.S4096x8, .f32⟩ : BufTy).Contents (Elt Ideal))
    (scales : (⟨Cert.KernelIdeal.S4096x1, .f32⟩ : BufTy).Contents (Elt Ideal)) :
    Cert.ReferenceIdeal.Read.val_main_v9 (F := Ideal) idx codebook scales
      = Cert.KernelIdeal.Host.weights (F := Ideal) idx codebook scales := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the dense layer of the activations and the one weight matrix. -/
theorem algebraic : Cert.algebraic_KernelIdeal_ReferenceIdeal := by
  intro m ρ m' ρ' _ hagree
  refine ⟨_, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.Bridge.result_eq, weights_agree,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
